-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x65 : Shape := ⟨2, ![50000, 65]⟩
abbrev S2x800000 : Shape := ⟨2, ![2, 800000]⟩
abbrev S50000 : Shape := ⟨1, ![50000]⟩
abbrev S10000x64 : Shape := ⟨2, ![10000, 64]⟩
abbrev S128x128 : Shape := ⟨2, ![128, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S50000x65 : S_.BroadcastsInDim S50000x65 (![] : Fin 0 → Fin S50000x65.rank)
  reducesTo_S50000x65_S_d0_1 : S50000x65.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128 .f32) (main_arg10 : FVec F S256x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S256x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x65 .f32) (main_arg1 : IVec S2x800000 32) (main_arg2 : IVec S50000 32) (main_arg3 : FVec F S10000x64 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S256x64 .f32) (main_arg11 : FVec F S64 .f32) : IVec S_ 1 :=
  let main_v0 : FVec F S50000x65 .f32 := Host.absf main_arg0
  let main_cst : FVec F S_ .f32 := constant S_ .f32 0x7F800000#32
  let main_v1 : FVec F S50000x65 .f32 := broadcastInDim S50000x65 ![] bcast_S_S50000x65 main_cst
  let main_v2 : IVec S50000x65 1 := cmpf .olt main_v0 main_v1
  let main_c : IVec S_ 1 := constantI S_ 1 1#1
  let main_v3 : IVec S_ 1 := (fun x v => Host.reduce IntOp.andi x v reducesTo_S50000x65_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x65 : Shape := ⟨2, ![50000, 65]⟩
abbrev S2x800000 : Shape := ⟨2, ![2, 800000]⟩
abbrev S50000 : Shape := ⟨1, ![50000]⟩
abbrev S10000x64 : Shape := ⟨2, ![10000, 64]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x1 : Shape := ⟨2, ![50000, 1]⟩
abbrev S50000x64 : Shape := ⟨2, ![50000, 64]⟩
abbrev S_ : Shape := ⟨0, ![]⟩
abbrev S50000x128 : Shape := ⟨2, ![50000, 128]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S128x64 : Shape := ⟨2, ![128, 64]⟩
abbrev S800000x64 : Shape := ⟨2, ![800000, 64]⟩
abbrev S1x64 : Shape := ⟨2, ![1, 64]⟩

abbrev nBuf : Space → Nat
  | .hbm => 228
  | .vmem => 20
  | .smem => 0
  | _ => 0

abbrev hbmTy0_0 (i : Nat) : BufTy := match i % 128 with
  | 0 => ⟨S50000x65, .f32⟩
  | 1 => ⟨S2x800000, .i32⟩
  | 2 => ⟨S50000, .i32⟩
  | 3 => ⟨S10000x64, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000x1, .f32⟩
  | 17 => ⟨S50000, .f32⟩
  | 18 => ⟨S50000, .i32⟩
  | 19 => ⟨S50000x64, .f32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x64, .f32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S50000, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x65, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x1, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x1, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S128x64, .f32⟩
  | 56 => ⟨S128x64, .f32⟩
  | 57 => ⟨S128x128, .f32⟩
  | 58 => ⟨S50000x128, .f32⟩
  | 59 => ⟨S50000x64, .f32⟩
  | 60 => ⟨S50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S800000x64, .f32⟩
  | 80 => ⟨S1x64, .f32⟩
  | 81 => ⟨S800000x64, .f32⟩
  | 82 => ⟨S800000x64, .f32⟩
  | 83 => ⟨S800000x64, .f32⟩
  | 84 => ⟨S800000x64, .f32⟩
  | 85 => ⟨S_, .f32⟩
  | 86 => ⟨S800000x64, .f32⟩
  | 87 => ⟨S800000x64, .f32⟩
  | 88 => ⟨S800000x64, .f32⟩
  | 89 => ⟨S_, .f32⟩
  | 90 => ⟨S800000x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .f32⟩
  | 97 => ⟨S800000x64, .f32⟩
  | 98 => ⟨S800000x64, .f32⟩
  | 99 => ⟨S800000x64, .f32⟩
  | _ => ⟨S50000x65, .f32⟩

abbrev hbmTy (i : Nat) : BufTy := match i / 128 with
  | 0 => hbmTy0_0 i
  | 1 => hbmTy0_1 i
  | _ => ⟨S50000x65, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S50000x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_23 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_24 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_25 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_26 : Ref sig .tc := ⟨.hbm, 176, rfl⟩
abbrev main_v136 : Ref sig .tc := ⟨.hbm, 177, rfl⟩
abbrev main_v137 : Ref sig .tc := ⟨.hbm, 178, rfl⟩
abbrev main_cst_27 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_c_28 : Ref sig .tc := ⟨.hbm, 189, rfl⟩
abbrev main_v147 : Ref sig .tc := ⟨.hbm, 190, rfl⟩
abbrev main_v148 : Ref sig .tc := ⟨.hbm, 191, rfl⟩
abbrev main_c_29 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_30 : Ref sig .tc := ⟨.hbm, 198, rfl⟩
abbrev main_v154 : Ref sig .tc := ⟨.hbm, 199, rfl⟩
abbrev main_v155 : Ref sig .tc := ⟨.hbm, 200, rfl⟩
abbrev main_c_31 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_32 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_33 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_34 : Ref sig .tc := ⟨.hbm, 221, rfl⟩
abbrev main_v173 : Ref sig .tc := ⟨.hbm, 222, rfl⟩
abbrev main_v174 : Ref sig .tc := ⟨.hbm, 223, rfl⟩
abbrev main_cst_35 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x65_S50000x1_0_64 : S50000x65.Slices ![0, 64] S50000x1
  shapeCasts_S50000x1_S50000 : S50000x1.ShapeCasts S50000
  slices_S50000x65_S50000x64_0_0 : S50000x65.Slices ![0, 0] S50000x64
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S256x64_S128x64_0_0 : S256x64.Slices ![0, 0] S128x64
  slices_S256x64_S128x64_128_0 : S256x64.Slices ![128, 0] S128x64
  concatenates_S128x64_S128x64_S128x128_d1 : Shape.Concatenates [S128x64, S128x64] S128x128 1
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  gather_S10000x64_S50000x1_S50000x64_1_0_n_n_0_1_164_wf : GatherDims.WF S10000x64 S50000x1 S50000x64 [1] [0] [] [0] [] 1 ![1, 64]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def gather_S10000x64_S50000x1_S50000x64_1_0_n_n_0_1_164 : GatherDims S10000x64 S50000x1 S50000x64 where
  offsetDims := [1]
  collapsedSliceDims := [0]
  operandBatchingDims := []
  startIndicesBatchingDims := []
  startIndexMap := [0]
  indexVectorDim := 1
  sliceSizes := ![1, 64]
  wf := gather_S10000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v72) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v73) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v106) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v107) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v140) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v143) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v144) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x65 : Shape := ⟨2, ![50000, 65]⟩
abbrev S2x800000 : Shape := ⟨2, ![2, 800000]⟩
abbrev S50000 : Shape := ⟨1, ![50000]⟩
abbrev S10000x64 : Shape := ⟨2, ![10000, 64]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x1 : Shape := ⟨2, ![50000, 1]⟩
abbrev S50000x64 : Shape := ⟨2, ![50000, 64]⟩
abbrev S_ : Shape := ⟨0, ![]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S800000x256 : Shape := ⟨2, ![800000, 256]⟩
abbrev S800000x64 : Shape := ⟨2, ![800000, 64]⟩
abbrev S1x64 : Shape := ⟨2, ![1, 64]⟩

abbrev nBuf : Space → Nat
  | .hbm => 283
  | .vmem => 0
  | .smem => 0
  | _ => 0

abbrev hbmTy0_0 (i : Nat) : BufTy := match i % 128 with
  | 0 => ⟨S50000x65, .f32⟩
  | 1 => ⟨S2x800000, .i32⟩
  | 2 => ⟨S50000, .i32⟩
  | 3 => ⟨S10000x64, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000x1, .f32⟩
  | 17 => ⟨S50000, .f32⟩
  | 18 => ⟨S50000, .i32⟩
  | 19 => ⟨S50000x64, .f32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x64, .f32⟩
  | 29 => ⟨S50000x128, .f32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x1, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x65, .f32⟩

abbrev hbmTy0_1 (i : Nat) : BufTy := match i % 128 with
  | 0 => ⟨S800000x1, .i32⟩
  | 1 => ⟨S800000, .f32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .f32⟩
  | 54 => ⟨S50000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000, .f32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .i32⟩
  | 125 => ⟨S800000, .i32⟩
  | 126 => ⟨S800000, .i1⟩
  | 127 => ⟨S_, .i32⟩
  | _ => ⟨S50000x65, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S800000x256, .f32⟩
  | 6 => ⟨S800000x64, .f32⟩
  | 7 => ⟨S1x64, .f32⟩
  | 8 => ⟨S800000x64, .f32⟩
  | 9 => ⟨S800000x64, .f32⟩
  | 10 => ⟨S800000x64, .f32⟩
  | 11 => ⟨S800000x64, .f32⟩
  | 12 => ⟨S_, .f32⟩
  | 13 => ⟨S800000x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S800000x64, .f32⟩
  | 20 => ⟨S_, .f32⟩
  | 21 => ⟨S800000x64, .f32⟩
  | 22 => ⟨S800000x64, .f32⟩
  | 23 => ⟨S_, .f32⟩
  | 24 => ⟨S800000x64, .f32⟩
  | 25 => ⟨S800000x64, .f32⟩
  | 26 => ⟨S800000x64, .f32⟩
  | _ => ⟨S50000x65, .f32⟩

abbrev hbmTy (i : Nat) : BufTy := match i / 128 with
  | 0 => hbmTy0_0 i
  | 1 => hbmTy0_1 i
  | 2 => hbmTy0_2 i
  | _ => ⟨S50000x65, .f32⟩

abbrev bufTy : (tb : Table) → Fin (tcTables nBuf tb) → BufTy
  | .hbm, ⟨i, _⟩ => hbmTy i
  | _, _ => ⟨S50000x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_c_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_21 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_24 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_26 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_28 : Ref sig .tc := ⟨.hbm, 173, rfl⟩
abbrev main_v131 : Ref sig .tc := ⟨.hbm, 174, rfl⟩
abbrev main_cst_29 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_30 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_31 : Ref sig .tc := ⟨.hbm, 183, rfl⟩
abbrev main_v138 : Ref sig .tc := ⟨.hbm, 184, rfl⟩
abbrev main_v139 : Ref sig .tc := ⟨.hbm, 185, rfl⟩
abbrev main_c_32 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_33 : Ref sig .tc := ⟨.hbm, 192, rfl⟩
abbrev main_v145 : Ref sig .tc := ⟨.hbm, 193, rfl⟩
abbrev main_v146 : Ref sig .tc := ⟨.hbm, 194, rfl⟩
abbrev main_c_34 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_c_35 : Ref sig .tc := ⟨.hbm, 202, rfl⟩
abbrev main_v153 : Ref sig .tc := ⟨.hbm, 203, rfl⟩
abbrev main_v154 : Ref sig .tc := ⟨.hbm, 204, rfl⟩
abbrev main_c_36 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_37 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_38 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_39 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_40 : Ref sig .tc := ⟨.hbm, 236, rfl⟩
abbrev main_v182 : Ref sig .tc := ⟨.hbm, 237, rfl⟩
abbrev main_v183 : Ref sig .tc := ⟨.hbm, 238, rfl⟩
abbrev main_cst_41 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_c_42 : Ref sig .tc := ⟨.hbm, 243, rfl⟩
abbrev main_v187 : Ref sig .tc := ⟨.hbm, 244, rfl⟩
abbrev main_v188 : Ref sig .tc := ⟨.hbm, 245, rfl⟩
abbrev main_c_43 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_c_44 : Ref sig .tc := ⟨.hbm, 252, rfl⟩
abbrev main_v194 : Ref sig .tc := ⟨.hbm, 253, rfl⟩
abbrev main_v195 : Ref sig .tc := ⟨.hbm, 254, rfl⟩
abbrev main_c_45 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_cst_46 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_47 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_cst_48 : Ref sig .tc := ⟨.hbm, 276, rfl⟩
abbrev main_v214 : Ref sig .tc := ⟨.hbm, 277, rfl⟩
abbrev main_v215 : Ref sig .tc := ⟨.hbm, 278, rfl⟩
abbrev main_cst_49 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x65_S50000x1_0_64 : S50000x65.Slices ![0, 64] S50000x1
  shapeCasts_S50000x1_S50000 : S50000x1.ShapeCasts S50000
  slices_S50000x65_S50000x64_0_0 : S50000x65.Slices ![0, 0] S50000x64
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  gather_S10000x64_S50000x1_S50000x64_1_0_n_n_0_1_164_wf : GatherDims.WF S10000x64 S50000x1 S50000x64 [1] [0] [] [0] [] 1 ![1, 64]
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S800000x256_S256x64_S800000x64_1_0_0_1_n_n_wf : DotDims.WF S800000x256 S256x64 S800000x64 [1] [0] [0] [1] [] []

variable [Facts₀]

def gather_S10000x64_S50000x1_S50000x64_1_0_n_n_0_1_164 : GatherDims S10000x64 S50000x1 S50000x64 where
  offsetDims := [1]
  collapsedSliceDims := [0]
  operandBatchingDims := []
  startIndicesBatchingDims := []
  startIndexMap := [0]
  indexVectorDim := 1
  sliceSizes := ![1, 64]
  wf := gather_S10000x64_S50000x1_S50000x64_1_0_n_n_0_1_164_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf

class Facts : Prop extends Facts₀ where

variable [Facts]
-- ==== Proof.KernelRun.lean ====
/-
  The idealized kernel's run, read back whole.

  @main is nine segments: five stretches of host operations and, between them, four launches of one tiled product
  kernel. The contents of every buffer at each segment boundary are a fold from the launch memory: a host stretch
  applies its operations in order, a launch replaces its output array by what its write-backs leave and keeps every
  other buffer. The run below says that every weakly fair execution terminates and that, at the end, EVERY buffer
  that outlives the launches holds the last boundary's contents — the result buffer included, which is what the
  value claim needs, and the twelve argument buffers, which the fold never touches.
-/
import proofs.«164202_j11141145166539_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in the
    final memory each buffer that is not scoped to a launch holds the contents the fold through @main's segments
    gives it. -/
theorem run_read : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.Region.lean ====
/-
  One launch of the tiled product kernel, read back as a whole-array function.

  The kernel tiles the rows of a 50000 x 128 matrix X into ten blocks of 5000 and multiplies each block by the
  whole 128 x 128 matrix W, rounding both operands to a narrower float format first. On the extended reals the
  rounding is the identity, a product accumulated into the zero block is the plain sum of products over the
  contracted coordinate, and row i of X·W depends on row i of X alone: so the block a grid point writes back is its
  block of rows of the whole product X·W, the ten blocks tile the output, and the output array after the launch IS
  the host's product of the two whole operand arrays as the launch found them. Stated once per launch, for any
  contents at entry.
-/
import proofs.«164202_j11141145166539_2_alg».proof.Proof.Gen.KernelIdeal.Frame
import proofs.«164202_j11141145166539_2_alg».proof.Proof.LibRowBlockDot
import Idealize.ShloMosaic.Lib.Pipeline.Value
import Idealize.ShloMosaic.Lib.ValueIdx

set_option maxRecDepth 16384

noncomputable section

namespace Cert.KernelIdeal.Whole

open Cert.KernelIdeal Cert.KernelIdeal.Gen Cert
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's product of a whole 50000 x 128 array and a whole 128 x 128 array, entry (r, q) being the sum over k of
    X(r, k) · W(k, q) on the extended reals. -/
abbrev wholeProd (X : FVec Ideal S50000x128 .f32) (W : FVec Ideal S128x128 .f32) : FVec Ideal S50000x128 .f32 :=
  Host.dotGeneral (F := Ideal) (DotDims.plain 50000 128 128) none X W

/-! ## Launch 0: the array `main_v39` after it is the product of the whole arrays `main_v15` and `main_arg4` -/

/-- The body's value at an entry: rounding the operands to a narrower format and the same-shape cast are the identity on
    the extended reals, so the block's product into the zero block is, entry by entry, the whole product at the row the
    block's row stands for. -/
theorem pay0_apply (x0 : Vec Ideal S5000x128 .f32) (x1 : Vec Ideal S128x128 .f32)
    (X : FVec Ideal ⟨2, ![50000, 128]⟩ .f32) (W : FVec Ideal ⟨2, ![128, 128]⟩ .f32) (row : Fin 5000 → Fin 50000)
    (hx0 : ∀ a b, x0 (ix2 a b) = X (ix2 (row a) b)) (hx1 : ∀ a b, x1 (ix2 a b) = W (ix2 a b))
    (j : (⟨2, ![5000, 128]⟩ : Shape).Idx) (i : (⟨2, ![50000, 128]⟩ : Shape).Idx)
    (h0 : (i 0).val = (row (j 0)).val) (h1 : (i 1).val = (j 1).val) :
    k0_pay1 (F := Ideal) x0 x1 j = Host.dotGeneral (DotDims.plain 50000 128 128) none X W i := by
  unfold k0_pay1
  exact LibRowBlockDot.matmul_rowBlock_apply_idx none none X W _ _ row
    (fun a b => by rw [truncf_apply, shapeCast_self]; exact hx0 a b)
    (fun a b => by rw [truncf_apply]; exact hx1 a b) j i h0 h1

/-- The index maps over the ten grid points: the left operand's block moves with the output's along the rows, the right
    operand is one whole block, and nothing moves along the columns. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of 5000 rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem flushed0 (c : Dev nD) (t : Fin cfg0.N) :
    (dat0 V c).flushed 2 t = ((cfg0.win 2).blk t).view.read (Elt Ideal)
      (wholeProd (V c main_v15) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  show k0_pay1 (iblk0 V c 0 t) (iblk0 V c 1 t) j
    = wholeProd (V c main_v15) (V c main_arg4) (((cfg0.win 2).blk t).view.emb j)
  refine pay0_apply (iblk0 V c 0 t) (iblk0 V c 1 t) (V c main_v15) (V c main_arg4)
    (fun a => ⟨win0_2.index t (0 : Fin 2) * 5000 + a.val, by have := a.isLt; omega⟩) ?_ ?_ j _ ?_ ?_
  · intro a b
    show V c main_v15 (((cfg0.win 0).blk t).view.emb (ix2 a b)) = V c main_v15 (ix2 _ b)
    refine congrArg _ (funext fun d => Fin.ext ?_)
    match d with
    | ⟨0, _⟩ => show win0_0.index t (0 : Fin 2) * 5000 + 1 * a.val = win0_2.index t (0 : Fin 2) * 5000 + a.val; omega
    | ⟨1, _⟩ => show win0_0.index t (1 : Fin 2) * 128 + 1 * b.val = b.val; omega
  · intro a b
    show V c main_arg4 (((cfg0.win 1).blk t).view.emb (ix2 a b)) = V c main_arg4 (ix2 a b)
    refine congrArg _ (funext fun d => Fin.ext ?_)
    match d with
    | ⟨0, _⟩ => show win0_1.index t (0 : Fin 2) * 128 + 1 * a.val = a.val; omega
    | ⟨1, _⟩ => show win0_1.index t (1 : Fin 2) * 128 + 1 * b.val = b.val; omega
  · show win0_2.index t (0 : Fin 2) * 5000 + 1 * (j 0).val = win0_2.index t (0 : Fin 2) * 5000 + (j 0).val; omega
  · show win0_2.index t (1 : Fin 2) * 128 + 1 * (j 1).val = (j 1).val; omega

/-- An entry of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Row `r` is in the block of point `r / 5000`: the ten blocks tile the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after launch 0, whatever the contents `V` the launch was entered at. -/
theorem region0 (c : Dev nD) :
    (dat0 V c).arrAt 2 cfg0.N = wholeProd (V c main_v15) (V c main_arg4) :=
  (dat0 V c).arrAt_eq_of_cover 2 _ (fun t _ => flushed0 V c t) (cover0)

/-! ## Launch 1: the array `main_v73` after it is the product of the whole arrays `main_v72` and `main_arg6` -/

/-- The body's value at an entry: rounding the operands to a narrower format and the same-shape cast are the identity on
    the extended reals, so the block's product into the zero block is, entry by entry, the whole product at the row the
    block's row stands for. -/
theorem pay1_apply (x0 : Vec Ideal S5000x128 .f32) (x1 : Vec Ideal S128x128 .f32)
    (X : FVec Ideal ⟨2, ![50000, 128]⟩ .f32) (W : FVec Ideal ⟨2, ![128, 128]⟩ .f32) (row : Fin 5000 → Fin 50000)
    (hx0 : ∀ a b, x0 (ix2 a b) = X (ix2 (row a) b)) (hx1 : ∀ a b, x1 (ix2 a b) = W (ix2 a b))
    (j : (⟨2, ![5000, 128]⟩ : Shape).Idx) (i : (⟨2, ![50000, 128]⟩ : Shape).Idx)
    (h0 : (i 0).val = (row (j 0)).val) (h1 : (i 1).val = (j 1).val) :
    k1_pay1 (F := Ideal) x0 x1 j = Host.dotGeneral (DotDims.plain 50000 128 128) none X W i := by
  unfold k1_pay1
  exact LibRowBlockDot.matmul_rowBlock_apply_idx none none X W _ _ row
    (fun a b => by rw [truncf_apply, shapeCast_self]; exact hx0 a b)
    (fun a b => by rw [truncf_apply]; exact hx1 a b) j i h0 h1

/-- The index maps over the ten grid points: the left operand's block moves with the output's along the rows, the right
    operand is one whole block, and nothing moves along the columns. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of 5000 rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product. -/
theorem flushed1 (c : Dev nD) (t : Fin cfg1.N) :
    (dat1 V c).flushed 2 t = ((cfg1.win 2).blk t).view.read (Elt Ideal)
      (wholeProd (V c main_v72) (V c main_arg6)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts1 t
  funext j
  show k1_pay1 (iblk1 V c 0 t) (iblk1 V c 1 t) j
    = wholeProd (V c main_v72) (V c main_arg6) (((cfg1.win 2).blk t).view.emb j)
  refine pay1_apply (iblk1 V c 0 t) (iblk1 V c 1 t) (V c main_v72) (V c main_arg6)
    (fun a => ⟨win1_2.index t (0 : Fin 2) * 5000 + a.val, by have := a.isLt; omega⟩) ?_ ?_ j _ ?_ ?_
  · intro a b
    show V c main_v72 (((cfg1.win 0).blk t).view.emb (ix2 a b)) = V c main_v72 (ix2 _ b)
    refine congrArg _ (funext fun d => Fin.ext ?_)
    match d with
    | ⟨0, _⟩ => show win1_0.index t (0 : Fin 2) * 5000 + 1 * a.val = win1_2.index t (0 : Fin 2) * 5000 + a.val; omega
    | ⟨1, _⟩ => show win1_0.index t (1 : Fin 2) * 128 + 1 * b.val = b.val; omega
  · intro a b
    show V c main_arg6 (((cfg1.win 1).blk t).view.emb (ix2 a b)) = V c main_arg6 (ix2 a b)
    refine congrArg _ (funext fun d => Fin.ext ?_)
    match d with
    | ⟨0, _⟩ => show win1_1.index t (0 : Fin 2) * 128 + 1 * a.val = a.val; omega
    | ⟨1, _⟩ => show win1_1.index t (1 : Fin 2) * 128 + 1 * b.val = b.val; omega
  · show win1_2.index t (0 : Fin 2) * 5000 + 1 * (j 0).val = win1_2.index t (0 : Fin 2) * 5000 + (j 0).val; omega
  · show win1_2.index t (1 : Fin 2) * 128 + 1 * (j 1).val = (j 1).val; omega

/-- An entry of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v73).slice (win1_2.rect t)).set ↔ _
  rw [View.set_slice_whole, Rect.mem_set_unit]
  exact Iff.rfl

/-- Row `r` is in the block of point `r / 5000`: the ten blocks tile the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after launch 1, whatever the contents `V` the launch was entered at. -/
theorem region1 (c : Dev nD) :
    (dat1 V c).arrAt 2 cfg1.N = wholeProd (V c main_v72) (V c main_arg6) :=
  (dat1 V c).arrAt_eq_of_cover 2 _ (fun t _ => flushed1 V c t) (cover1)

/-! ## Launch 2: the array `main_v107` after it is the product of the whole arrays `main_v106` and `main_arg8` -/

/-- The body's value at an entry: rounding the operands to a narrower format and the same-shape cast are the identity on
    the extended reals, so the block's product into the zero block is, entry by entry, the whole product at the row the
    block's row stands for. -/
theorem pay2_apply (x0 : Vec Ideal S5000x128 .f32) (x1 : Vec Ideal S128x128 .f32)
    (X : FVec Ideal ⟨2, ![50000, 128]⟩ .f32) (W : FVec Ideal ⟨2, ![128, 128]⟩ .f32) (row : Fin 5000 → Fin 50000)
    (hx0 : ∀ a b, x0 (ix2 a b) = X (ix2 (row a) b)) (hx1 : ∀ a b, x1 (ix2 a b) = W (ix2 a b))
    (j : (⟨2, ![5000, 128]⟩ : Shape).Idx) (i : (⟨2, ![50000, 128]⟩ : Shape).Idx)
    (h0 : (i 0).val = (row (j 0)).val) (h1 : (i 1).val = (j 1).val) :
    k2_pay1 (F := Ideal) x0 x1 j = Host.dotGeneral (DotDims.plain 50000 128 128) none X W i := by
  unfold k2_pay1
  exact LibRowBlockDot.matmul_rowBlock_apply_idx none none X W _ _ row
    (fun a b => by rw [truncf_apply, shapeCast_self]; exact hx0 a b)
    (fun a b => by rw [truncf_apply]; exact hx1 a b) j i h0 h1

/-- The index maps over the ten grid points: the left operand's block moves with the output's along the rows, the right
    operand is one whole block, and nothing moves along the columns. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of 5000 rows is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product. -/
theorem flushed2 (c : Dev nD) (t : Fin cfg2.N) :
    (dat2 V c).flushed 2 t = ((cfg2.win 2).blk t).view.read (Elt Ideal)
      (wholeProd (V c main_v106) (V c main_arg8)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts2 t
  funext j
  show k2_pay1 (iblk2 V c 0 t) (iblk2 V c 1 t) j
    = wholeProd (V c main_v106) (V c main_arg8) (((cfg2.win 2).blk t).view.emb j)
  refine pay2_apply (iblk2 V c 0 t) (iblk2 V c 1 t) (V c main_v106) (V c main_arg8)
    (fun a => ⟨win2_2.index t (0 : Fin 2) * 5000 + a.val, by have := a.isLt; omega⟩) ?_ ?_ j _ ?_ ?_
  · intro a b
    show V c main_v106 (((cfg2.win 0).blk t).view.emb (ix2 a b)) = V c main_v106 (ix2 _ b)
    refine congrArg _ (funext fun d => Fin.ext ?_)
    match d with
    | ⟨0, _⟩ => show win2_0.index t (0 : Fin 2) * 5000 + 1 * a.val = win2_2.index t (0 : Fin 2) * 5000 + a.val; omega
    | ⟨1, _⟩ => show win2_0.index t (1 : Fin 2) * 128 + 1 * b.val = b.val; omega
  · intro a b
    show V c main_arg8 (((cfg2.win 1).blk t).view.emb (ix2 a b)) = V c main_arg8 (ix2 a b)
    refine congrArg _ (funext fun d => Fin.ext ?_)
    match d with
    | ⟨0, _⟩ => show win2_1.index t (0 : Fin 2) * 128 + 1 * a.val = a.val; omega
    | ⟨1, _⟩ => show win2_1.index t (1 : Fin 2) * 128 + 1 * b.val = b.val; omega
  · show win2_2.index t (0 : Fin 2) * 5000 + 1 * (j 0).val = win2_2.index t (0 : Fin 2) * 5000 + (j 0).val; omega
  · show win2_2.index t (1 : Fin 2) * 128 + 1 * (j 1).val = (j 1).val; omega

/-- An entry of the array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v107).slice (win2_2.rect t)).set ↔ _
  rw [View.set_slice_whole, Rect.mem_set_unit]
  exact Iff.rfl

/-- Row `r` is in the block of point `r / 5000`: the ten blocks tile the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after launch 2, whatever the contents `V` the launch was entered at. -/
theorem region2 (c : Dev nD) :
    (dat2 V c).arrAt 2 cfg2.N = wholeProd (V c main_v106) (V c main_arg8) :=
  (dat2 V c).arrAt_eq_of_cover 2 _ (fun t _ => flushed2 V c t) (cover2)

/-! ## Launch 3: the array `main_v144` after it is the product of the whole arrays `main_v140` and `main_v143` -/

/-- The body's value at an entry: rounding the operands to a narrower format and the same-shape cast are the identity on
    the extended reals, so the block's product into the zero block is, entry by entry, the whole product at the row the
    block's row stands for. -/
theorem pay3_apply (x0 : Vec Ideal S5000x128 .f32) (x1 : Vec Ideal S128x128 .f32)
    (X : FVec Ideal ⟨2, ![50000, 128]⟩ .f32) (W : FVec Ideal ⟨2, ![128, 128]⟩ .f32) (row : Fin 5000 → Fin 50000)
    (hx0 : ∀ a b, x0 (ix2 a b) = X (ix2 (row a) b)) (hx1 : ∀ a b, x1 (ix2 a b) = W (ix2 a b))
    (j : (⟨2, ![5000, 128]⟩ : Shape).Idx) (i : (⟨2, ![50000, 128]⟩ : Shape).Idx)
    (h0 : (i 0).val = (row (j 0)).val) (h1 : (i 1).val = (j 1).val) :
    k3_pay1 (F := Ideal) x0 x1 j = Host.dotGeneral (DotDims.plain 50000 128 128) none X W i := by
  unfold k3_pay1
  exact LibRowBlockDot.matmul_rowBlock_apply_idx none none X W _ _ row
    (fun a b => by rw [truncf_apply, shapeCast_self]; exact hx0 a b)
    (fun a b => by rw [truncf_apply, shapeCast_self]; exact hx1 a b) j i h0 h1

/-- The index maps over the ten grid points: the left operand's block moves with the output's along the rows, the right
    operand is one whole block, and nothing moves along the columns. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of 5000 rows is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole product. -/
theorem flushed3 (c : Dev nD) (t : Fin cfg3.N) :
    (dat3 V c).flushed 2 t = ((cfg3.win 2).blk t).view.read (Elt Ideal)
      (wholeProd (V c main_v140) (V c main_v143)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts3 t
  funext j
  show k3_pay1 (iblk3 V c 0 t) (iblk3 V c 1 t) j
    = wholeProd (V c main_v140) (V c main_v143) (((cfg3.win 2).blk t).view.emb j)
  refine pay3_apply (iblk3 V c 0 t) (iblk3 V c 1 t) (V c main_v140) (V c main_v143)
    (fun a => ⟨win3_2.index t (0 : Fin 2) * 5000 + a.val, by have := a.isLt; omega⟩) ?_ ?_ j _ ?_ ?_
  · intro a b
    show V c main_v140 (((cfg3.win 0).blk t).view.emb (ix2 a b)) = V c main_v140 (ix2 _ b)
    refine congrArg _ (funext fun d => Fin.ext ?_)
    match d with
    | ⟨0, _⟩ => show win3_0.index t (0 : Fin 2) * 5000 + 1 * a.val = win3_2.index t (0 : Fin 2) * 5000 + a.val; omega
    | ⟨1, _⟩ => show win3_0.index t (1 : Fin 2) * 128 + 1 * b.val = b.val; omega
  · intro a b
    show V c main_v143 (((cfg3.win 1).blk t).view.emb (ix2 a b)) = V c main_v143 (ix2 a b)
    refine congrArg _ (funext fun d => Fin.ext ?_)
    match d with
    | ⟨0, _⟩ => show win3_1.index t (0 : Fin 2) * 128 + 1 * a.val = a.val; omega
    | ⟨1, _⟩ => show win3_1.index t (1 : Fin 2) * 128 + 1 * b.val = b.val; omega
  · show win3_2.index t (0 : Fin 2) * 5000 + 1 * (j 0).val = win3_2.index t (0 : Fin 2) * 5000 + (j 0).val; omega
  · show win3_2.index t (1 : Fin 2) * 128 + 1 * (j 1).val = (j 1).val; omega

/-- An entry of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v144).slice (win3_2.rect t)).set ↔ _
  rw [View.set_slice_whole, Rect.mem_set_unit]
  exact Iff.rfl

/-- Row `r` is in the block of point `r / 5000`: the ten blocks tile the array. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after launch 3, whatever the contents `V` the launch was entered at. -/
theorem region3 (c : Dev nD) :
    (dat3 V c).arrAt 2 cfg3.N = wholeProd (V c main_v140) (V c main_v143) :=
  (dat3 V c).arrAt_eq_of_cover 2 _ (fun t _ => flushed3 V c t) (cover3)

end Cert.KernelIdeal.Whole

end
-- ==== Proof.Spec.lean ====
/-
  The whole-array functions both programs are made of, on the extended reals.

  Both programs compute, from the node table x (its last column a row number into the embedding table), the edge list
  (sources in row 0, targets in row 1), three weight matrices with their biases and a final 256 x 64 projection:

    h0      = [ x without its last column | the embedding rows the last column names ]              (50000 x 128)
    dis     = (in-degree + 1)^(-1/2), one number per node; nrm(e) = dis(source e) · dis(target e)
    pre(t)  = ( sum over the edges e into a node of t(source e) · nrm(e) ) + dis² · t + bias         (50000 x 128)
    h_{l+1} = act( pre( h_l · W_l ) ),   act(v) = v · (1/2) · (1 + tanh( c₁ · (v + c₂ · v³) ))
    out(e)  = act( [ h3(source e) | h3(target e) ] · P + bias )                                     (800000 x 64)

  with row lookups by an index wrapped once when negative and then clamped, and sums into a node taken over the edges
  whose unwrapped target is that node. The reference writes exactly this. The kernel computes dis, nrm once instead of
  three times, takes each product h · W through a tiled kernel, and at the end multiplies h3 ONCE by the two halves of P
  laid side by side, [ P_top | P_bottom ] (128 x 128), and adds the left half of that product at the source to its right
  half at the target. Every function below is written with the programs' own operations, so that each program's
  composed term is one of them by unfolding.
-/
import proofs.«164202_j11141145166539_2_alg».proof.KernelIdeal
import proofs.«164202_j11141145166539_2_alg».proof.ReferenceIdeal
import Idealize.ShloMosaic.PureOps.Ideal

set_option maxRecDepth 8192

noncomputable section

namespace Cert.Spec

open Cert.ReferenceIdeal Idealize.ShloMosaic
open Cert.ReferenceIdeal.Facts₀ Cert.ReferenceIdeal.Facts

variable [Cert.ReferenceIdeal.Facts] [Cert.KernelIdeal.Facts]

/-- The edges' source nodes: row 0 of the edge list. -/
def srcRaw (a1 : IVec S2x800000 32) : IVec S800000 32 :=
  shapeCast _ (extractStridedSlice S1x800000 ![0, 0] a1 slices_S2x800000_S1x800000_0_0) shapeCasts_S1x800000_S800000

/-- The edges' target nodes: row 1 of the edge list. -/
def dstRaw (a1 : IVec S2x800000 32) : IVec S800000 32 :=
  shapeCast _ (extractStridedSlice S1x800000 ![1, 0] a1 slices_S2x800000_S1x800000_1_0) shapeCasts_S1x800000_S800000

/-- A node index as a lookup takes it: a negative one moved up by the number of nodes, then laid out as a column. -/
def wrapCol (v : IVec S800000 32) : IVec S800000x1 32 :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- The embedding row each node names: the last column of x as an integer. -/
def nodeId (a0 : FVec Ideal S50000x65 .f32) : IVec S50000 32 :=
  fptosi 32 (shapeCast _ (extractStridedSlice S50000x1 ![0, 64] a0 slices_S50000x65_S50000x1_0_64) shapeCasts_S50000x1_S50000)

/-- The input features: x without its last column beside the embedding rows it names. -/
def feat (a0 : FVec Ideal S50000x65 .f32) (a3 : FVec Ideal S10000x64 .f32) : FVec Ideal S50000x128 .f32 :=
  concatenate S50000x128 1 [⟨S50000x64, (extractStridedSlice S50000x64 ![0, 0] a0 slices_S50000x65_S50000x64_0_0)⟩, ⟨S50000x64, (Host.gather gather_S10000x64_S50000x1_S50000x64_1_0_n_n_0_1_164 a3 (broadcastInDim S50000x1 ![0] bcast_S50000_S50000x1_0 (select (cmpi .slt (nodeId a0) (broadcastInDim S50000 ![] bcast_S_S50000 (constantI S_ 32 0#32))) (addi (nodeId a0) (broadcastInDim S50000 ![] bcast_S_S50000 (constantI S_ 32 10000#32))) (nodeId a0))))⟩] concatenates_S50000x64_S50000x64_S50000x128_d1

/-- (in-degree + 1)^(-1/2) per node. -/
def dis (a1 : IVec S2x800000 32) : FVec Ideal S50000 .f32 :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 (dstRaw a1)) (broadcastInDim S800000 ![] bcast_S_S800000 (constant S_ .f32 0x3F800000#32))) (broadcastInDim S50000 ![] bcast_S_S50000 (constant S_ .f32 0x3F800000#32)))

/-- The edge weight: dis at the source times dis at the target. -/
def nrm (a1 : IVec S2x800000 32) : FVec Ideal S800000 .f32 :=
  mulf (Host.gather gather_S50000_S800000x1_S800000_n_0_n_n_0_1_1 (dis a1) (wrapCol (srcRaw a1))) (Host.gather gather_S50000_S800000x1_S800000_n_0_n_n_0_1_1 (dis a1) (wrapCol (dstRaw a1)))

/-- dis squared, the weight of a node's own row. -/
def disSq (a1 : IVec S2x800000 32) : FVec Ideal S50000 .f32 := mulf (dis a1) (dis a1)

/-- One aggregation given the edge weights and the self weights as arrays: weighted rows summed into their targets, plus
    the node's own weighted row, plus the bias. -/
def preWith (t : FVec Ideal S50000x128 .f32) (src dst : IVec S800000 32) (w : FVec Ideal S800000 .f32) (d2 : FVec Ideal S50000 .f32) (b : FVec Ideal S128 .f32) : FVec Ideal S50000x128 .f32 :=
  addf (addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 t (wrapCol src)) (broadcastInDim S800000x128 ![0, 1] bcast_S800000x1_S800000x128_0_1 (broadcastInDim S800000x1 ![0] bcast_S800000_S800000x1_0 w)))) (mulf (broadcastInDim S50000x128 ![0, 1] bcast_S50000x1_S50000x128_0_1 (broadcastInDim S50000x1 ![0] bcast_S50000_S50000x1_0 d2)) t)) (broadcastInDim S50000x128 ![0, 1] bcast_S1x128_S50000x128_0_1 (broadcastInDim S1x128 ![1] bcast_S128_S1x128_1 b))

/-- One aggregation of the transformed features `t` over the graph `a1`. -/
def pre (t : FVec Ideal S50000x128 .f32) (a1 : IVec S2x800000 32) (b : FVec Ideal S128 .f32) : FVec Ideal S50000x128 .f32 :=
  preWith t (srcRaw a1) (dstRaw a1) (nrm a1) (disSq a1) b

/-- The activation on node features: v · (1/2) · (1 + tanh(c₁ · (v + c₂ · v³))). -/
def act128 (v : FVec Ideal S50000x128 .f32) : FVec Ideal S50000x128 .f32 :=
  mulf v (mulf (broadcastInDim S50000x128 ![] bcast_S_S50000x128 (constant S_ .f32 0x3F000000#32)) (addf (broadcastInDim S50000x128 ![] bcast_S_S50000x128 (constant S_ .f32 0x3F800000#32)) (Host.tanh (mulf (broadcastInDim S50000x128 ![] bcast_S_S50000x128 (constant S_ .f32 0x3F4C422A#32)) (addf v (mulf (broadcastInDim S50000x128 ![] bcast_S_S50000x128 (constant S_ .f32 0x3D372713#32)) (mulf (mulf v v) v)))))))

/-- The same activation on edge features. -/
def act64 (v : FVec Ideal S800000x64 .f32) : FVec Ideal S800000x64 .f32 :=
  mulf v (mulf (broadcastInDim S800000x64 ![] bcast_S_S800000x64 (constant S_ .f32 0x3F000000#32)) (addf (broadcastInDim S800000x64 ![] bcast_S_S800000x64 (constant S_ .f32 0x3F800000#32)) (Host.tanh (mulf (broadcastInDim S800000x64 ![] bcast_S_S800000x64 (constant S_ .f32 0x3F4C422A#32)) (addf v (mulf (broadcastInDim S800000x64 ![] bcast_S_S800000x64 (constant S_ .f32 0x3D372713#32)) (mulf (mulf v v) v)))))))

/-- Node features times a weight matrix. -/
def prod (h : FVec Ideal S50000x128 .f32) (W : FVec Ideal S128x128 .f32) : FVec Ideal S50000x128 .f32 :=
  Host.dotGeneral dot_S50000x128_S128x128_S50000x128_1_0_0_1_n_n none h W

/-- One layer. -/
def layer (h : FVec Ideal S50000x128 .f32) (W : FVec Ideal S128x128 .f32) (a1 : IVec S2x800000 32) (b : FVec Ideal S128 .f32) : FVec Ideal S50000x128 .f32 :=
  act128 (pre (prod h W) a1 b)

/-- The node features after the three layers. -/
def hidden (a0 : FVec Ideal S50000x65 .f32) (a1 : IVec S2x800000 32) (a3 : FVec Ideal S10000x64 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32) : FVec Ideal S50000x128 .f32 :=
  layer (layer (layer (feat a0 a3) a4 a1 a5) a6 a1 a7) a8 a1 a9

/-- The bias of the last stage laid over every edge. -/
def edgeBias (a11 : FVec Ideal S64 .f32) : FVec Ideal S800000x64 .f32 :=
  broadcastInDim S800000x64 ![0, 1] bcast_S1x64_S800000x64_0_1 (broadcastInDim S1x64 ![1] bcast_S64_S1x64_1 a11)

/-- The reference's last projection: the two endpoints' rows side by side, times the 256 x 64 matrix. -/
def edgeRef (h : FVec Ideal S50000x128 .f32) (src dst : IVec S800000 32) (a10 : FVec Ideal S256x64 .f32) : FVec Ideal S800000x64 .f32 :=
  Host.dotGeneral dot_S800000x256_S256x64_S800000x64_1_0_0_1_n_n none (concatenate S800000x256 1 [⟨S800000x128, (Host.gather gather_S50000x128_S800000x1_S800000x128_1_0_n_n_0_1_1128 h (wrapCol src))⟩, ⟨S800000x128, (Host.gather gather_S50000x128_S800000x1_S800000x128_1_0_n_n_0_1_1128 h (wrapCol dst))⟩] concatenates_S800000x128_S800000x128_S800000x256_d1) a10

/-- The two halves of the 256 x 64 matrix laid side by side. -/
def sideBySide (a10 : FVec Ideal S256x64 .f32) : FVec Ideal S128x128 .f32 :=
  concatenate S128x128 1 [⟨Cert.KernelIdeal.S128x64, (extractStridedSlice Cert.KernelIdeal.S128x64 ![0, 0] a10 Cert.KernelIdeal.Facts₀.slices_S256x64_S128x64_0_0)⟩, ⟨Cert.KernelIdeal.S128x64, (extractStridedSlice Cert.KernelIdeal.S128x64 ![128, 0] a10 Cert.KernelIdeal.Facts₀.slices_S256x64_S128x64_128_0)⟩] Cert.KernelIdeal.Facts₀.concatenates_S128x64_S128x64_S128x128_d1

/-- The kernel's last projection from the product `ab` of the node features with the side-by-side matrix: its left half
    at the source plus its right half at the target. -/
def edgeKer (ab : FVec Ideal S50000x128 .f32) (src dst : IVec S800000 32) : FVec Ideal S800000x64 .f32 :=
  addf (Host.gather Cert.KernelIdeal.gather_S50000x64_S800000x1_S800000x64_1_0_n_n_0_1_164 (extractStridedSlice S50000x64 ![0, 0] ab Cert.KernelIdeal.Facts₀.slices_S50000x128_S50000x64_0_0) (wrapCol src)) (Host.gather Cert.KernelIdeal.gather_S50000x64_S800000x1_S800000x64_1_0_n_n_0_1_164 (extractStridedSlice S50000x64 ![0, 64] ab Cert.KernelIdeal.Facts₀.slices_S50000x128_S50000x64_0_64) (wrapCol dst))

/-- The reference's result. -/
def refOut (a0 : FVec Ideal S50000x65 .f32) (a1 : IVec S2x800000 32) (a3 : FVec Ideal S10000x64 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32) (a10 : FVec Ideal S256x64 .f32) (a11 : FVec Ideal S64 .f32) : FVec Ideal S800000x64 .f32 :=
  act64 (addf (edgeRef (hidden a0 a1 a3 a4 a5 a6 a7 a8 a9) (srcRaw a1) (dstRaw a1) a10) (edgeBias a11))

/-- The kernel's result. -/
def kerOut (a0 : FVec Ideal S50000x65 .f32) (a1 : IVec S2x800000 32) (a3 : FVec Ideal S10000x64 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32) (a10 : FVec Ideal S256x64 .f32) (a11 : FVec Ideal S64 .f32) : FVec Ideal S800000x64 .f32 :=
  act64 (addf (edgeKer (prod (hidden a0 a1 a3 a4 a5 a6 a7 a8 a9) (sideBySide a10)) (srcRaw a1) (dstRaw a1)) (edgeBias a11))

end Cert.Spec

end
-- ==== Proof.Stages.lean ====
/-
  The contents of the kernel's buffers at each segment boundary, as whole-array functions of the arguments.

  Going through @main: the first stretch of host operations computes the edge endpoints, the node features, the
  edge weights and the self weights; each launch leaves in its output array the product of its two operand arrays
  (Region.lean); each later stretch reads that product, the endpoints, the weights and a bias, none of which any
  operation in between writes, and computes one layer's aggregation and activation; the last stretch slices the last
  product in two, looks the halves up at the endpoints, adds them and the bias, and applies the activation. Composed,
  the result buffer at the end holds the specification's `kerOut` of the twelve argument arrays.
-/
import proofs.«164202_j11141145166539_2_alg».proof.Proof.Gen.KernelIdeal.Frame
import proofs.«164202_j11141145166539_2_alg».proof.Proof.Region
import proofs.«164202_j11141145166539_2_alg».proof.Proof.Spec
import Idealize.ShloMosaic.Lib.StableHlo.Run

set_option maxRecDepth 100000
set_option maxHeartbeats 2000000

noncomputable section

namespace Cert.KernelIdeal.Whole

open Cert.KernelIdeal Cert.KernelIdeal.Gen Cert
open Idealize.ShloMosaic Idealize.ShloMosaic.TcCoe Idealize.ShloMosaic.StableHlo
open Idealize.SL.Sem

/-- No operation of a literal list of host operations writes a given buffer: the list's operations one by one, each
    result buffer a different reference. -/
macro "not_written " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable [Cert.ReferenceIdeal.Facts]
variable (m : (ℓ : Loc nD τ sig) → Buf (Elt Ideal) ℓ) (ρ : Dev nD → PrngReg) (c : Dev nD)

/-! ## After the first stretch -/

theorem W1_v1 : W1 m ρ c (Proc.devRef .tc main_v1) = Spec.srcRaw (m ((c : Thread nD τ).loc main_arg1)) := by
  show StableHlo.after hostOps0 (W0 m ρ c) (Proc.devRef .tc main_v1) = _
  after_results_simp
  rfl

theorem W1_v3 : W1 m ρ c (Proc.devRef .tc main_v3) = Spec.dstRaw (m ((c : Thread nD τ).loc main_arg1)) := by
  show StableHlo.after hostOps0 (W0 m ρ c) (Proc.devRef .tc main_v3) = _
  after_results_simp
  rfl

theorem W1_v15 : W1 m ρ c (Proc.devRef .tc main_v15) = Spec.feat (m ((c : Thread nD τ).loc main_arg0)) (m ((c : Thread nD τ).loc main_arg3)) := by
  show StableHlo.after hostOps0 (W0 m ρ c) (Proc.devRef .tc main_v15) = _
  after_results_simp
  rfl

theorem W1_v37 : W1 m ρ c (Proc.devRef .tc main_v37) = Spec.nrm (m ((c : Thread nD τ).loc main_arg1)) := by
  show StableHlo.after hostOps0 (W0 m ρ c) (Proc.devRef .tc main_v37) = _
  after_results_simp
  rfl

theorem W1_v38 : W1 m ρ c (Proc.devRef .tc main_v38) = Spec.disSq (m ((c : Thread nD τ).loc main_arg1)) := by
  show StableHlo.after hostOps0 (W0 m ρ c) (Proc.devRef .tc main_v38) = _
  after_results_simp
  rfl

/-! ## The arguments: no host operation and no launch writes one -/

theorem W1_arg4 : W1 m ρ c (Proc.devRef .tc main_arg4) = (m ((c : Thread nD τ).loc main_arg4)) :=
  calc W1 m ρ c (Proc.devRef .tc main_arg4)
    _ = W0 m ρ c (Proc.devRef .tc main_arg4) := StableHlo.after_of_forall_not_mem (b := (Proc.devRef .tc main_arg4)) _ _ (by not_written hostOps0)
    _ = (m ((c : Thread nD τ).loc main_arg4)) := rfl

theorem W2_arg5 : W2 m ρ c (Proc.devRef .tc main_arg5) = (m ((c : Thread nD τ).loc main_arg5)) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := (Proc.devRef .tc main_arg5)) _ _ (by not_written hostOps0)
    _ = (m ((c : Thread nD τ).loc main_arg5)) := rfl

theorem W3_arg6 : W3 m ρ c (Proc.devRef .tc main_arg6) = (m ((c : Thread nD τ).loc main_arg6)) :=
  calc W3 m ρ c (Proc.devRef .tc main_arg6)
    _ = W2 m ρ c (Proc.devRef .tc main_arg6) := StableHlo.after_of_forall_not_mem (b := (Proc.devRef .tc main_arg6)) _ _ (by not_written hostOps1)
    _ = W1 m ρ c (Proc.devRef .tc main_arg6) := W2_of_ne m ρ c main_arg6 (by decide)
    _ = W0 m ρ c (Proc.devRef .tc main_arg6) := StableHlo.after_of_forall_not_mem (b := (Proc.devRef .tc main_arg6)) _ _ (by not_written hostOps0)
    _ = (m ((c : Thread nD τ).loc main_arg6)) := rfl

theorem W4_arg7 : W4 m ρ c (Proc.devRef .tc main_arg7) = (m ((c : Thread nD τ).loc main_arg7)) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := (Proc.devRef .tc main_arg7)) _ _ (by not_written hostOps1)
    _ = W1 m ρ c (Proc.devRef .tc main_arg7) := W2_of_ne m ρ c main_arg7 (by decide)
    _ = W0 m ρ c (Proc.devRef .tc main_arg7) := StableHlo.after_of_forall_not_mem (b := (Proc.devRef .tc main_arg7)) _ _ (by not_written hostOps0)
    _ = (m ((c : Thread nD τ).loc main_arg7)) := rfl

theorem W5_arg8 : W5 m ρ c (Proc.devRef .tc main_arg8) = (m ((c : Thread nD τ).loc main_arg8)) :=
  calc W5 m ρ c (Proc.devRef .tc main_arg8)
    _ = W4 m ρ c (Proc.devRef .tc main_arg8) := StableHlo.after_of_forall_not_mem (b := (Proc.devRef .tc main_arg8)) _ _ (by not_written hostOps2)
    _ = W3 m ρ c (Proc.devRef .tc main_arg8) := W4_of_ne m ρ c main_arg8 (by decide)
    _ = W2 m ρ c (Proc.devRef .tc main_arg8) := StableHlo.after_of_forall_not_mem (b := (Proc.devRef .tc main_arg8)) _ _ (by not_written hostOps1)
    _ = W1 m ρ c (Proc.devRef .tc main_arg8) := W2_of_ne m ρ c main_arg8 (by decide)
    _ = W0 m ρ c (Proc.devRef .tc main_arg8) := StableHlo.after_of_forall_not_mem (b := (Proc.devRef .tc main_arg8)) _ _ (by not_written hostOps0)
    _ = (m ((c : Thread nD τ).loc main_arg8)) := rfl

theorem W6_arg9 : W6 m ρ c (Proc.devRef .tc main_arg9) = (m ((c : Thread nD τ).loc main_arg9)) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := (Proc.devRef .tc main_arg9)) _ _ (by not_written hostOps2)
    _ = W3 m ρ c (Proc.devRef .tc main_arg9) := W4_of_ne m ρ c main_arg9 (by decide)
    _ = W2 m ρ c (Proc.devRef .tc main_arg9) := StableHlo.after_of_forall_not_mem (b := (Proc.devRef .tc main_arg9)) _ _ (by not_written hostOps1)
    _ = W1 m ρ c (Proc.devRef .tc main_arg9) := W2_of_ne m ρ c main_arg9 (by decide)
    _ = W0 m ρ c (Proc.devRef .tc main_arg9) := StableHlo.after_of_forall_not_mem (b := (Proc.devRef .tc main_arg9)) _ _ (by not_written hostOps0)
    _ = (m ((c : Thread nD τ).loc main_arg9)) := rfl

theorem W6_arg10 : W6 m ρ c (Proc.devRef .tc main_arg10) = (m ((c : Thread nD τ).loc main_arg10)) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := (Proc.devRef .tc main_arg10)) _ _ (by not_written hostOps2)
    _ = W3 m ρ c (Proc.devRef .tc main_arg10) := W4_of_ne m ρ c main_arg10 (by decide)
    _ = W2 m ρ c (Proc.devRef .tc main_arg10) := StableHlo.after_of_forall_not_mem (b := (Proc.devRef .tc main_arg10)) _ _ (by not_written hostOps1)
    _ = W1 m ρ c (Proc.devRef .tc main_arg10) := W2_of_ne m ρ c main_arg10 (by decide)
    _ = W0 m ρ c (Proc.devRef .tc main_arg10) := StableHlo.after_of_forall_not_mem (b := (Proc.devRef .tc main_arg10)) _ _ (by not_written hostOps0)
    _ = (m ((c : Thread nD τ).loc main_arg10)) := rfl

theorem W8_arg11 : W8 m ρ c (Proc.devRef .tc main_arg11) = (m ((c : Thread nD τ).loc main_arg11)) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := (Proc.devRef .tc main_arg11)) _ _ (by not_written hostOps3)
    _ = W5 m ρ c (Proc.devRef .tc main_arg11) := W6_of_ne m ρ c main_arg11 (by decide)
    _ = W4 m ρ c (Proc.devRef .tc main_arg11) := StableHlo.after_of_forall_not_mem (b := (Proc.devRef .tc main_arg11)) _ _ (by not_written hostOps2)
    _ = W3 m ρ c (Proc.devRef .tc main_arg11) := W4_of_ne m ρ c main_arg11 (by decide)
    _ = W2 m ρ c (Proc.devRef .tc main_arg11) := StableHlo.after_of_forall_not_mem (b := (Proc.devRef .tc main_arg11)) _ _ (by not_written hostOps1)
    _ = W1 m ρ c (Proc.devRef .tc main_arg11) := W2_of_ne m ρ c main_arg11 (by decide)
    _ = W0 m ρ c (Proc.devRef .tc main_arg11) := StableHlo.after_of_forall_not_mem (b := (Proc.devRef .tc main_arg11)) _ _ (by not_written hostOps0)
    _ = (m ((c : Thread nD τ).loc main_arg11)) := rfl

/-! ## The endpoints and the weights: computed once, read by every later stretch, written by nothing in between -/

theorem W2_v1 : W2 m ρ c (Proc.devRef .tc main_v1) = Spec.srcRaw (m ((c : Thread nD τ).loc main_arg1)) :=
  calc W2 m ρ c (Proc.devRef .tc main_v1)
    _ = W1 m ρ c (Proc.devRef .tc main_v1) := W2_of_ne m ρ c main_v1 (by decide)
    _ = Spec.srcRaw (m ((c : Thread nD τ).loc main_arg1)) := W1_v1 m ρ c

theorem W4_v1 : W4 m ρ c (Proc.devRef .tc main_v1) = Spec.srcRaw (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := (Proc.devRef .tc main_v1)) _ _ (by not_written hostOps1)
    _ = Spec.srcRaw (m ((c : Thread nD τ).loc main_arg1)) := W2_v1 m ρ c

theorem W6_v1 : W6 m ρ c (Proc.devRef .tc main_v1) = Spec.srcRaw (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := (Proc.devRef .tc main_v1)) _ _ (by not_written hostOps2)
    _ = Spec.srcRaw (m ((c : Thread nD τ).loc main_arg1)) := W4_v1 m ρ c

theorem W8_v1 : W8 m ρ c (Proc.devRef .tc main_v1) = Spec.srcRaw (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := (Proc.devRef .tc main_v1)) _ _ (by not_written hostOps3)
    _ = Spec.srcRaw (m ((c : Thread nD τ).loc main_arg1)) := W6_v1 m ρ c

theorem W2_v3 : W2 m ρ c (Proc.devRef .tc main_v3) = Spec.dstRaw (m ((c : Thread nD τ).loc main_arg1)) :=
  calc W2 m ρ c (Proc.devRef .tc main_v3)
    _ = W1 m ρ c (Proc.devRef .tc main_v3) := W2_of_ne m ρ c main_v3 (by decide)
    _ = Spec.dstRaw (m ((c : Thread nD τ).loc main_arg1)) := W1_v3 m ρ c

theorem W4_v3 : W4 m ρ c (Proc.devRef .tc main_v3) = Spec.dstRaw (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := (Proc.devRef .tc main_v3)) _ _ (by not_written hostOps1)
    _ = Spec.dstRaw (m ((c : Thread nD τ).loc main_arg1)) := W2_v3 m ρ c

theorem W6_v3 : W6 m ρ c (Proc.devRef .tc main_v3) = Spec.dstRaw (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := (Proc.devRef .tc main_v3)) _ _ (by not_written hostOps2)
    _ = Spec.dstRaw (m ((c : Thread nD τ).loc main_arg1)) := W4_v3 m ρ c

theorem W8_v3 : W8 m ρ c (Proc.devRef .tc main_v3) = Spec.dstRaw (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := (Proc.devRef .tc main_v3)) _ _ (by not_written hostOps3)
    _ = Spec.dstRaw (m ((c : Thread nD τ).loc main_arg1)) := W6_v3 m ρ c

theorem W2_v37 : W2 m ρ c (Proc.devRef .tc main_v37) = Spec.nrm (m ((c : Thread nD τ).loc main_arg1)) :=
  calc W2 m ρ c (Proc.devRef .tc main_v37)
    _ = W1 m ρ c (Proc.devRef .tc main_v37) := W2_of_ne m ρ c main_v37 (by decide)
    _ = Spec.nrm (m ((c : Thread nD τ).loc main_arg1)) := W1_v37 m ρ c

theorem W4_v37 : W4 m ρ c (Proc.devRef .tc main_v37) = Spec.nrm (m ((c : Thread nD τ).loc main_arg1)) :=
  calc W4 m ρ c (Proc.devRef .tc main_v37)
    _ = W3 m ρ c (Proc.devRef .tc main_v37) := W4_of_ne m ρ c main_v37 (by decide)
    _ = W2 m ρ c (Proc.devRef .tc main_v37) := StableHlo.after_of_forall_not_mem (b := (Proc.devRef .tc main_v37)) _ _ (by not_written hostOps1)
    _ = Spec.nrm (m ((c : Thread nD τ).loc main_arg1)) := W2_v37 m ρ c

theorem W6_v37 : W6 m ρ c (Proc.devRef .tc main_v37) = Spec.nrm (m ((c : Thread nD τ).loc main_arg1)) :=
  calc W6 m ρ c (Proc.devRef .tc main_v37)
    _ = W5 m ρ c (Proc.devRef .tc main_v37) := W6_of_ne m ρ c main_v37 (by decide)
    _ = W4 m ρ c (Proc.devRef .tc main_v37) := StableHlo.after_of_forall_not_mem (b := (Proc.devRef .tc main_v37)) _ _ (by not_written hostOps2)
    _ = Spec.nrm (m ((c : Thread nD τ).loc main_arg1)) := W4_v37 m ρ c

theorem W2_v38 : W2 m ρ c (Proc.devRef .tc main_v38) = Spec.disSq (m ((c : Thread nD τ).loc main_arg1)) :=
  calc W2 m ρ c (Proc.devRef .tc main_v38)
    _ = W1 m ρ c (Proc.devRef .tc main_v38) := W2_of_ne m ρ c main_v38 (by decide)
    _ = Spec.disSq (m ((c : Thread nD τ).loc main_arg1)) := W1_v38 m ρ c

theorem W4_v38 : W4 m ρ c (Proc.devRef .tc main_v38) = Spec.disSq (m ((c : Thread nD τ).loc main_arg1)) :=
  calc W4 m ρ c (Proc.devRef .tc main_v38)
    _ = W3 m ρ c (Proc.devRef .tc main_v38) := W4_of_ne m ρ c main_v38 (by decide)
    _ = W2 m ρ c (Proc.devRef .tc main_v38) := StableHlo.after_of_forall_not_mem (b := (Proc.devRef .tc main_v38)) _ _ (by not_written hostOps1)
    _ = Spec.disSq (m ((c : Thread nD τ).loc main_arg1)) := W2_v38 m ρ c

theorem W6_v38 : W6 m ρ c (Proc.devRef .tc main_v38) = Spec.disSq (m ((c : Thread nD τ).loc main_arg1)) :=
  calc W6 m ρ c (Proc.devRef .tc main_v38)
    _ = W5 m ρ c (Proc.devRef .tc main_v38) := W6_of_ne m ρ c main_v38 (by decide)
    _ = W4 m ρ c (Proc.devRef .tc main_v38) := StableHlo.after_of_forall_not_mem (b := (Proc.devRef .tc main_v38)) _ _ (by not_written hostOps2)
    _ = Spec.disSq (m ((c : Thread nD τ).loc main_arg1)) := W4_v38 m ρ c

/-! ## The launches and the layers -/

/-- Launch 0 leaves the product of its operands in `main_v39`. -/
theorem W2_v39 : W2 m ρ c (Proc.devRef .tc main_v39) = (Spec.prod (Spec.feat (m ((c : Thread nD τ).loc main_arg0)) (m ((c : Thread nD τ).loc main_arg3))) (m ((c : Thread nD τ).loc main_arg4))) := by
  refine (W2_arr m ρ c 2).trans ((region0 (V1 m ρ) c).trans ?_)
  show Spec.prod (W1 m ρ c (Proc.devRef .tc main_v15)) (W1 m ρ c (Proc.devRef .tc main_arg4)) = _
  rw [W1_v15 m ρ c, W1_arg4 m ρ c]

/-- Stretch 1: one layer's aggregation and activation of the product the launch before it left. -/
theorem W3_v72 : W3 m ρ c (Proc.devRef .tc main_v72) = (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) := by
  show StableHlo.after hostOps1 (W2 m ρ c) (Proc.devRef .tc main_v72) = _
  after_results_simp
  rw [W2_v1 m ρ c, W2_v3 m ρ c, W2_v37 m ρ c, W2_v38 m ρ c, W2_arg5 m ρ c, W2_v39 m ρ c]
  rfl

/-- Launch 1 leaves the product of its operands in `main_v73`. -/
theorem W4_v73 : W4 m ρ c (Proc.devRef .tc main_v73) = (Spec.prod (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) (m ((c : Thread nD τ).loc main_arg6))) := by
  refine (W4_arr m ρ c 2).trans ((region1 (V3 m ρ) c).trans ?_)
  show Spec.prod (W3 m ρ c (Proc.devRef .tc main_v72)) (W3 m ρ c (Proc.devRef .tc main_arg6)) = _
  rw [W3_v72 m ρ c, W3_arg6 m ρ c]

/-- Stretch 2: one layer's aggregation and activation of the product the launch before it left. -/
theorem W5_v106 : W5 m ρ c (Proc.devRef .tc main_v106) = (Spec.layer (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) (m ((c : Thread nD τ).loc main_arg6)) (m ((c : Thread nD τ).loc main_arg1)) (m ((c : Thread nD τ).loc main_arg7))) := by
  show StableHlo.after hostOps2 (W4 m ρ c) (Proc.devRef .tc main_v106) = _
  after_results_simp
  rw [W4_v1 m ρ c, W4_v3 m ρ c, W4_v37 m ρ c, W4_v38 m ρ c, W4_arg7 m ρ c, W4_v73 m ρ c]
  rfl

/-- Launch 2 leaves the product of its operands in `main_v107`. -/
theorem W6_v107 : W6 m ρ c (Proc.devRef .tc main_v107) = (Spec.prod (Spec.layer (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) (m ((c : Thread nD τ).loc main_arg6)) (m ((c : Thread nD τ).loc main_arg1)) (m ((c : Thread nD τ).loc main_arg7))) (m ((c : Thread nD τ).loc main_arg8))) := by
  refine (W6_arr m ρ c 2).trans ((region2 (V5 m ρ) c).trans ?_)
  show Spec.prod (W5 m ρ c (Proc.devRef .tc main_v106)) (W5 m ρ c (Proc.devRef .tc main_arg8)) = _
  rw [W5_v106 m ρ c, W5_arg8 m ρ c]

/-- Stretch 3: one layer's aggregation and activation of the product the launch before it left. -/
theorem W7_v140 : W7 m ρ c (Proc.devRef .tc main_v140) = (Spec.layer (Spec.layer (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) (m ((c : Thread nD τ).loc main_arg6)) (m ((c : Thread nD τ).loc main_arg1)) (m ((c : Thread nD τ).loc main_arg7))) (m ((c : Thread nD τ).loc main_arg8)) (m ((c : Thread nD τ).loc main_arg1)) (m ((c : Thread nD τ).loc main_arg9))) := by
  show StableHlo.after hostOps3 (W6 m ρ c) (Proc.devRef .tc main_v140) = _
  after_results_simp
  rw [W6_v1 m ρ c, W6_v3 m ρ c, W6_v37 m ρ c, W6_v38 m ρ c, W6_arg9 m ρ c, W6_v107 m ρ c]
  rfl

/-- Stretch 3 also lays the two halves of the last projection side by side. -/
theorem W7_v143 : W7 m ρ c (Proc.devRef .tc main_v143) = Spec.sideBySide (m ((c : Thread nD τ).loc main_arg10)) := by
  have e : W7 m ρ c (Proc.devRef .tc main_v143) = Spec.sideBySide (W6 m ρ c (Proc.devRef .tc main_arg10)) := by
    show StableHlo.after hostOps3 (W6 m ρ c) (Proc.devRef .tc main_v143) = _
    after_results_simp
    rfl
  rw [e, W6_arg10 m ρ c]

/-- Launch 3 leaves the product of its operands in `main_v144`. -/
theorem W8_v144 : W8 m ρ c (Proc.devRef .tc main_v144) = (Spec.prod (Spec.layer (Spec.layer (Spec.layer (Spec.feat (m ((c : Thread nD τ).loc main_arg0)) (m ((c : Thread nD τ).loc main_arg3))) (m ((c : Thread nD τ).loc main_arg4)) (m ((c : Thread nD τ).loc main_arg1)) (m ((c : Thread nD τ).loc main_arg5))) (m ((c : Thread nD τ).loc main_arg6)) (m ((c : Thread nD τ).loc main_arg1)) (m ((c : Thread nD τ).loc main_arg7))) (m ((c : Thread nD τ).loc main_arg8)) (m ((c : Thread nD τ).loc main_arg1)) (m ((c : Thread nD τ).loc main_arg9))) (Spec.sideBySide (m ((c : Thread nD τ).loc main_arg10)))) := by
  refine (W8_arr m ρ c 2).trans ((region3 (V7 m ρ) c).trans ?_)
  show Spec.prod (W7 m ρ c (Proc.devRef .tc main_v140)) (W7 m ρ c (Proc.devRef .tc main_v143)) = _
  rw [W7_v140 m ρ c, W7_v143 m ρ c]

/-- THE KERNEL'S RESULT: the last stretch's lookups, sum, bias and activation of the last product. -/
theorem W9_v177 : W9 m ρ c (Proc.devRef .tc main_v177) = Spec.kerOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v177) = _
  after_results_simp
  rw [W8_v1 m ρ c, W8_v3 m ρ c, W8_arg11 m ρ c, W8_v144 m ρ c]
  rfl

end Cert.KernelIdeal.Whole

end
-- ==== Proof.RefValue.lean ====
/-
  The reference's run in terms of the shared whole-array functions.

  The reference is a straight line of host operations; its run ends with the result buffer at the operations' composed
  term of the argument arrays. That term is, stage by stage, the functions of the specification: the edge endpoints, the
  node features, the degree weights (written out three times by the reference, the same term each time), three
  layers of product, aggregation and activation, and the last projection with its bias and activation. Every
  equation below holds by unfolding both sides.
-/
import proofs.«164202_j11141145166539_2_alg».proof.Proof.Gen.ReferenceIdeal.Run
import proofs.«164202_j11141145166539_2_alg».proof.Proof.Spec

set_option maxRecDepth 16384

noncomputable section

namespace Cert.ReferenceIdeal.Whole

open Cert.ReferenceIdeal Cert.ReferenceIdeal.Gen Cert.ReferenceIdeal.Value Cert.Spec
open Idealize.ShloMosaic Idealize.ShloMosaic.TcCoe Idealize.SL.Sem Idealize.ShloMosaic.StableHlo

variable (V0 : Valuation τ sig (Elt Ideal))

theorem v1_eq : res_main_v1 V0 = srcRaw (V0 (Proc.devRef .tc main_arg1)) := rfl
theorem v3_eq : res_main_v3 V0 = dstRaw (V0 (Proc.devRef .tc main_arg1)) := rfl
theorem v6_eq : res_main_v6 V0 = nodeId (V0 (Proc.devRef .tc main_arg0)) := rfl
theorem v16_eq : res_main_v16 V0 = prod (feat (V0 (Proc.devRef .tc main_arg0)) (V0 (Proc.devRef .tc main_arg3))) (V0 (Proc.devRef .tc main_arg4)) := rfl
theorem v23_eq : res_main_v23 V0 = dis (V0 (Proc.devRef .tc main_arg1)) := rfl
theorem v80_eq : res_main_v80 V0 = dis (V0 (Proc.devRef .tc main_arg1)) := rfl
theorem v137_eq : res_main_v137 V0 = dis (V0 (Proc.devRef .tc main_arg1)) := rfl
theorem v59_eq : res_main_v59 V0 = pre (res_main_v16 V0) (V0 (Proc.devRef .tc main_arg1)) (V0 (Proc.devRef .tc main_arg5)) := rfl
theorem v73_eq : res_main_v73 V0 = prod (act128 (res_main_v59 V0)) (V0 (Proc.devRef .tc main_arg6)) := rfl
theorem v116_eq : res_main_v116 V0 = pre (res_main_v73 V0) (V0 (Proc.devRef .tc main_arg1)) (V0 (Proc.devRef .tc main_arg7)) := rfl
theorem v130_eq : res_main_v130 V0 = prod (act128 (res_main_v116 V0)) (V0 (Proc.devRef .tc main_arg8)) := rfl
theorem v173_eq : res_main_v173 V0 = pre (res_main_v130 V0) (V0 (Proc.devRef .tc main_arg1)) (V0 (Proc.devRef .tc main_arg9)) := rfl
theorem v186_eq : res_main_v186 V0 = act128 (res_main_v173 V0) := rfl
theorem v205_eq : res_main_v205 V0 = addf (edgeRef (res_main_v186 V0) (res_main_v1 V0) (res_main_v3 V0) (V0 (Proc.devRef .tc main_arg10))) (edgeBias (V0 (Proc.devRef .tc main_arg11))) := rfl

/-- The three layers, composed. -/
theorem hidden_eq : res_main_v186 V0 = hidden (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [v186_eq, v173_eq, v130_eq, v116_eq, v73_eq, v59_eq, v16_eq]
  rfl

/-- The reference's composed result term is the specification's `refOut` of the argument arrays. -/
theorem result_eq : act64 (res_main_v205 V0) = refOut (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [v205_eq, hidden_eq, v1_eq, v3_eq]
  rfl

/-- The reference's run: it terminates with the result at `refOut` of the arguments as launched, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v218) = refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (result_eq (launchContents m c)), (h c).2⟩) (Value.run (F := Ideal) m ρ)

end Cert.ReferenceIdeal.Whole

end
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibColumnBlocks.lean ====
/-
  Matrices cut into blocks of rows or of columns, and a product whose left factor is two blocks of columns side by side.

  Writing [ A | B ] for an m x a matrix A and an m x b matrix B laid side by side (m x (a + b)), and P for an (a + b) x p
  matrix with top a rows P_top and bottom b rows P_bot,

      [ A | B ] · P  =  A · P_top  +  B · P_bot        entry by entry,

  because a sum over the a + b contracted positions is the sum over the first a plus the sum over the last b. This is the
  law behind factoring a projection of two concatenated feature rows, concat(h[row], h[col]) · P, into two projections
  added. On the extended reals it needs nothing of the entries: only associativity and commutativity of the sum are used.
  Also here, generic in the extents and the element type: the entry reads of two column blocks side by side, of a block of
  consecutive rows of a matrix, and of a block of consecutive columns.
-/
import Idealize.ShloMosaic.Lib.StackMember
import Idealize.ShloMosaic.Lib.Pipeline.Value
import Idealize.ShloMosaic.Lib.ValueIdx

noncomputable section

open scoped BigOperators

namespace Cert.LibColumnBlocks

open Idealize.ShloMosaic Idealize.ShloMosaic.ValueIdx

variable {α : Type}

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  exact Fin.sum_univ_add (a := a) (b := b) f

/-- Two blocks of columns side by side, read in the first block. -/
theorem colBlocks_left {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin a) :
    concatenate ⟨2, ![m, n]⟩ 1 [⟨⟨2, ![m, a]⟩, x₁⟩, ⟨⟨2, ![m, b]⟩, x₂⟩] h (ix2 r (⟨k.val, by omega⟩ : Fin n)) = x₁ (ix2 r k) :=
  concatenate_pair_apply_left (t := ⟨2, ![m, n]⟩) (s₁ := ⟨2, ![m, a]⟩) (s₂ := ⟨2, ![m, b]⟩) (1 : Fin 2) x₁ x₂ h
    (ix2 r (⟨k.val, by omega⟩ : Fin n)) rfl (ix2 r k) (fun d => by
      match d with
      | ⟨0, _⟩ => rfl
      | ⟨1, _⟩ => rfl)

/-- Two blocks of columns side by side, read in the second block. -/
theorem colBlocks_right {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin b) :
    concatenate ⟨2, ![m, n]⟩ 1 [⟨⟨2, ![m, a]⟩, x₁⟩, ⟨⟨2, ![m, b]⟩, x₂⟩] h (ix2 r (⟨a + k.val, by omega⟩ : Fin n)) = x₂ (ix2 r k) :=
  concatenate_pair_apply_right (t := ⟨2, ![m, n]⟩) (s₁ := ⟨2, ![m, a]⟩) (s₂ := ⟨2, ![m, b]⟩) (1 : Fin 2) x₁ x₂ h
    (ix2 r (⟨a + k.val, by omega⟩ : Fin n)) rfl rfl (ix2 r k) (fun d hd => by
      match d with
      | ⟨0, _⟩ => rfl
      | ⟨1, _⟩ => exact absurd rfl hd) (by show k.val + a = a + k.val; omega)

/-- A block of m consecutive rows of a matrix, starting at row o, read at an entry. -/
theorem rowBlock_apply {M m n : Nat} (o : Nat) (ho : o + m ≤ M) (x : (⟨2, ![M, n]⟩ : Shape).Idx → α)
    (h : (⟨2, ![M, n]⟩ : Shape).Slices ![o, 0] ⟨2, ![m, n]⟩) (r : Fin m) (j : Fin n) :
    extractStridedSlice ⟨2, ![m, n]⟩ ![o, 0] x h (ix2 r j) = x (ix2 (⟨o + r.val, by omega⟩ : Fin M) j) :=
  extractStridedSlice_apply _ x h (ix2 r j) (ix2 (⟨o + r.val, by omega⟩ : Fin M) j) (fun d => by
    match d with
    | ⟨0, _⟩ => rfl
    | ⟨1, _⟩ => show j.val = 0 + j.val; omega)

/-- A block of n consecutive columns of a matrix, starting at column o, read at an entry. -/
theorem colBlock_apply {m N n : Nat} (o : Nat) (ho : o + n ≤ N) (x : (⟨2, ![m, N]⟩ : Shape).Idx → α)
    (h : (⟨2, ![m, N]⟩ : Shape).Slices ![0, o] ⟨2, ![m, n]⟩) (r : Fin m) (j : Fin n) :
    extractStridedSlice ⟨2, ![m, n]⟩ ![0, o] x h (ix2 r j) = x (ix2 r (⟨o + j.val, by omega⟩ : Fin N)) :=
  extractStridedSlice_apply _ x h (ix2 r j) (ix2 r (⟨o + j.val, by omega⟩ : Fin N)) (fun d => by
    match d with
    | ⟨0, _⟩ => show r.val = 0 + r.val; omega
    | ⟨1, _⟩ => rfl)

/-- THE LAW: [ A | B ] · P at (e, j) is Σ_k A(e,k) · P(k, j) + Σ_k B(e,k) · P(a + k, j), under any printed record equal to
    the plain one. -/
theorem dot_colBlocks_apply {m a b n p : Nat} (hn : a + b = n)
    (D : DotDims ⟨2, ![m, n]⟩ ⟨2, ![n, p]⟩ ⟨2, ![m, p]⟩) (hD : D = DotDims.plain m n p)
    (A : FVec Ideal ⟨2, ![m, a]⟩ .f32) (B : FVec Ideal ⟨2, ![m, b]⟩ .f32)
    (h : Shape.Concatenates [(⟨2, ![m, a]⟩ : Shape), ⟨2, ![m, b]⟩] ⟨2, ![m, n]⟩ 1)
    (P : FVec Ideal ⟨2, ![n, p]⟩ .f32) (e : Fin m) (j : Fin p) :
    Host.dotGeneral D none (concatenate ⟨2, ![m, n]⟩ 1 [⟨⟨2, ![m, a]⟩, A⟩, ⟨⟨2, ![m, b]⟩, B⟩] h : FVec Ideal ⟨2, ![m, n]⟩ .f32) P (ix2 e j)
      = ∑ k : Fin a, A (ix2 e k) * P (ix2 (⟨k.val, by omega⟩ : Fin n) j)
        + ∑ k : Fin b, B (ix2 e k) * P (ix2 (⟨a + k.val, by omega⟩ : Fin n) j) := by
  subst hD
  rw [StackMember.dotGeneral_plain_apply, sum_split hn]
  congr 1
  · exact Finset.sum_congr rfl fun k _ => by rw [colBlocks_left hn A B h e k]
  · exact Finset.sum_congr rfl fun k _ => by rw [colBlocks_right hn A B h e k]

end Cert.LibColumnBlocks

end
-- ==== Proof.EdgeLaw.lean ====
/-
  The last stage: one projection of the two endpoints' rows side by side is two half projections added.

  For an edge e with (wrapped, clamped) source row r and target row s, the reference forms the 256-vector
  [ h(r, ·) | h(s, ·) ] and multiplies it by the 256 x 64 matrix P:

      Σ_{k < 256} [h(r,·) | h(s,·)](k) · P(k, j)  =  Σ_{k < 128} h(r,k) · P(k, j)  +  Σ_{k < 128} h(s,k) · P(128 + k, j).

  The kernel multiplies h once by Q = [ P_top | P_bottom ] (128 x 128, so Q(k, j) = P(k, j) and Q(k, 64 + j) = P(128 + k, j)
  for j < 64) and adds column j of row r of h·Q to column 64 + j of row s: the same two sums. Only the splitting of a finite
  sum at position 128 is used, which holds in any commutative monoid, so nothing here needs the entries to be finite.
-/
import proofs.«164202_j11141145166539_2_alg».proof.Proof.Spec
import proofs.«164202_j11141145166539_2_alg».proof.Proof.LibGatherScatter
import proofs.«164202_j11141145166539_2_alg».proof.Proof.LibHostReads
import proofs.«164202_j11141145166539_2_alg».proof.Proof.LibColumnBlocks
import Idealize.ShloMosaic.Lib.Pipeline.Value
import Idealize.ShloMosaic.Lib.ValueIdx

set_option maxRecDepth 8192

noncomputable section

open scoped BigOperators

namespace Cert.Spec

open Cert.ReferenceIdeal Idealize.ShloMosaic Idealize.ShloMosaic.ValueIdx
open Cert.ReferenceIdeal.Facts₀ Cert.ReferenceIdeal.Facts

variable [Cert.ReferenceIdeal.Facts] [Cert.KernelIdeal.Facts]

/-- The row a lookup reads for edge `e`: the index word read signed, clamped into the node range. -/
def rowOf (idx : IVec S800000x1 32) (e : Fin 800000) : Fin 50000 :=
  ⟨min (idx (ix2 e 0)).toInt.toNat (50000 - 1), by omega⟩

/-- A lookup of whole 128-wide rows, read at an entry. -/
theorem gather128_apply (x : FVec Ideal S50000x128 .f32) (idx : IVec S800000x1 32) (e : Fin 800000) (k : Fin 128) :
    Host.gather gather_S50000x128_S800000x1_S800000x128_1_0_n_n_0_1_1128 x idx (ix2 e k) = x (ix2 (rowOf idx e) k) :=
  Cert.GatherScatter.gather_row_apply (N := 50000) (M := 800000) (C := 128) (by decide)
    gather_S50000x128_S800000x1_S800000x128_1_0_n_n_0_1_1128_wf x idx e k

/-- A lookup of whole 64-wide rows, read at an entry. -/
theorem gather64_apply (x : FVec Ideal S50000x64 .f32) (idx : IVec S800000x1 32) (e : Fin 800000) (j : Fin 64) :
    Host.gather Cert.KernelIdeal.gather_S50000x64_S800000x1_S800000x64_1_0_n_n_0_1_164 x idx (ix2 e j) = x (ix2 (rowOf idx e) j) :=
  Cert.GatherScatter.gather_row_apply (N := 50000) (M := 800000) (C := 64) (by decide)
    Cert.KernelIdeal.Facts₀.gather_S50000x64_S800000x1_S800000x64_1_0_n_n_0_1_164_wf x idx e j

/-- The left 64 columns of a 128-wide array. -/
theorem leftHalf_apply (ab : FVec Ideal S50000x128 .f32) (r : Fin 50000) (j : Fin 64) :
    extractStridedSlice S50000x64 ![0, 0] ab Cert.KernelIdeal.Facts₀.slices_S50000x128_S50000x64_0_0 (ix2 r j)
      = ab (ix2 r (⟨j.val, by omega⟩ : Fin 128)) :=
  extractStridedSlice_apply _ ab _ (ix2 r j) (ix2 r (⟨j.val, by omega⟩ : Fin 128)) (fun a => by
    match a with
    | ⟨0, _⟩ => show r.val = 0 + r.val; omega
    | ⟨1, _⟩ => show j.val = 0 + j.val; omega)

/-- The right 64 columns of a 128-wide array. -/
theorem rightHalf_apply (ab : FVec Ideal S50000x128 .f32) (r : Fin 50000) (j : Fin 64) :
    extractStridedSlice S50000x64 ![0, 64] ab Cert.KernelIdeal.Facts₀.slices_S50000x128_S50000x64_0_64 (ix2 r j)
      = ab (ix2 r (⟨64 + j.val, by omega⟩ : Fin 128)) :=
  Cert.LibColumnBlocks.colBlock_apply (m := 50000) (N := 128) (n := 64) 64 (by omega) ab _ r j

/-- Node features times a 128 x 128 matrix, read at an entry. -/
theorem prod_apply (h : FVec Ideal S50000x128 .f32) (W : FVec Ideal S128x128 .f32) (r : Fin 50000) (q : Fin 128) :
    prod h W (ix2 r q) = ∑ k : Fin 128, h (ix2 r k) * W (ix2 k q) :=
  Cert.LibHostReads.dot_apply (m := 50000) (k := 128) (n := 128) dot_S50000x128_S128x128_S50000x128_1_0_0_1_n_n rfl h W r q

/-- The side-by-side matrix in its left 64 columns is the top half of P. -/
theorem sideBySide_left (a10 : FVec Ideal S256x64 .f32) (k : Fin 128) (j : Fin 64) :
    sideBySide a10 (ix2 k (⟨j.val, by omega⟩ : Fin 128)) = a10 (ix2 (⟨k.val, by omega⟩ : Fin 256) j) := by
  unfold sideBySide
  refine (Cert.LibColumnBlocks.colBlocks_left (m := 128) (a := 64) (b := 64) (n := 128) rfl _ _ _ k j).trans ?_
  exact extractStridedSlice_apply _ a10 _ (ix2 k j) (ix2 (⟨k.val, by omega⟩ : Fin 256) j) (fun a => by
    match a with
    | ⟨0, _⟩ => show k.val = 0 + k.val; omega
    | ⟨1, _⟩ => show j.val = 0 + j.val; omega)

/-- The side-by-side matrix in its right 64 columns is the bottom half of P. -/
theorem sideBySide_right (a10 : FVec Ideal S256x64 .f32) (k : Fin 128) (j : Fin 64) :
    sideBySide a10 (ix2 k (⟨64 + j.val, by omega⟩ : Fin 128)) = a10 (ix2 (⟨128 + k.val, by omega⟩ : Fin 256) j) := by
  unfold sideBySide
  exact (Cert.LibColumnBlocks.colBlocks_right (m := 128) (a := 64) (b := 64) (n := 128) rfl _ _ _ k j).trans
    (Cert.LibColumnBlocks.rowBlock_apply (M := 256) (m := 128) (n := 64) 128 (by omega) a10 _ k j)

/-- THE LAW of the last stage: the kernel's two half projections added are the reference's one projection. -/
theorem edge_law (h : FVec Ideal S50000x128 .f32) (src dst : IVec S800000 32) (a10 : FVec Ideal S256x64 .f32) :
    edgeKer (prod h (sideBySide a10)) src dst = edgeRef h src dst a10 := by
  funext i
  obtain ⟨e, j, rfl⟩ : ∃ (e : Fin 800000) (j : Fin 64), i = ix2 e j := ⟨i 0, i 1, eq_ix2 i⟩
  unfold edgeKer edgeRef
  rw [addf_apply, gather64_apply, gather64_apply, leftHalf_apply, rightHalf_apply, prod_apply, prod_apply]
  rw [Cert.LibColumnBlocks.dot_colBlocks_apply (a := 128) (b := 128) rfl dot_S800000x256_S256x64_S800000x64_1_0_0_1_n_n rfl _ _ _ a10 e j]
  congr 1
  · exact Finset.sum_congr rfl fun k _ => by rw [sideBySide_left, gather128_apply]
  · exact Finset.sum_congr rfl fun k _ => by rw [sideBySide_right, gather128_apply]

/-- The two programs compute one function of the arguments: they differ only in the last projection. -/
theorem kerOut_eq_refOut (a0 : FVec Ideal S50000x65 .f32) (a1 : IVec S2x800000 32) (a3 : FVec Ideal S10000x64 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32) (a10 : FVec Ideal S256x64 .f32) (a11 : FVec Ideal S64 .f32) :
    kerOut a0 a1 a3 a4 a5 a6 a7 a8 a9 a10 a11 = refOut a0 a1 a3 a4 a5 a6 a7 a8 a9 a10 a11 := by
  unfold kerOut refOut
  rw [edge_law]

end Cert.Spec

end
-- ==== Proof.lean ====
/-
  The certificate of a three-layer graph network with an edge projection: a kernel that takes each dense product
  h · W through a tiled matrix kernel, and factors the last projection, against its plain reference.

  On the extended reals the two programs are one composition of the same whole-array functions (Proof/Spec.lean) except
  at two places. Each tiled launch leaves in its output the host's product of its whole operands, because rounding the
  operands is the identity there, a product into the zero block is the plain sum, and a block of rows of a product is
  the product of that block of rows (Proof/Region.lean). And the last stage adds two half projections where the
  reference projects the two endpoints' rows side by side: a finite sum split at its middle (Proof/EdgeLaw.lean). The
  kernel's buffers are followed through @main's segments to the result (Proof/KernelRun.lean, Proof/Stages.lean), the
  reference's run is its straight line of operations read back (Proof/RefValue.lean). No step uses that the inputs are
  finite, so the precondition is never opened. The idealization rewrote nothing, so it preserves the kernel trivially.
-/
import proofs.«164202_j11141145166539_2_alg».proof.Defs
import proofs.«164202_j11141145166539_2_alg».proof.Proof.Gen.Kernel
import proofs.«164202_j11141145166539_2_alg».proof.Proof.Gen.Kernel.Frame
import proofs.«164202_j11141145166539_2_alg».proof.Proof.Gen.KernelIdeal
import proofs.«164202_j11141145166539_2_alg».proof.Proof.Gen.KernelIdeal.Frame
import proofs.«164202_j11141145166539_2_alg».proof.Proof.Gen.ReferenceIdeal
import proofs.«164202_j11141145166539_2_alg».proof.Proof.Gen.ReferenceIdeal.Run
import proofs.«164202_j11141145166539_2_alg».proof.Proof.Gen.Pre_finite_inputs
import proofs.«164202_j11141145166539_2_alg».proof.Proof.KernelRun
import proofs.«164202_j11141145166539_2_alg».proof.Proof.Stages
import proofs.«164202_j11141145166539_2_alg».proof.Proof.RefValue
import proofs.«164202_j11141145166539_2_alg».proof.Proof.EdgeLaw
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one function of the arguments: the kernel's buffers followed to the end give
    `kerOut`, the reference's operations give `refOut`, and the two are equal. -/
theorem algebraic : Cert.algebraic_KernelIdeal_ReferenceIdeal := by
  intro m ρ m' ρ' _ hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Whole.run_read m ρ)
    exact ⟨(h c _ (Cert.KernelIdeal.Gen.mem_uc Cert.KernelIdeal.main_v177 (by decide))).trans (Cert.KernelIdeal.Whole.W9_v177 m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c)⟩
  · refine (θ_run Cert.ReferenceIdeal.defs _ _).mono (fun r h c => ⟨(h c).1.trans ?_, (h c).2⟩) (Cert.ReferenceIdeal.Whole.run m' ρ')
    obtain ⟨h0, h1, h2, h3, h4, h5, h6, h7, h8, h9, h10, h11⟩ := hagree c
    rw [h0, h1, h3, h4, h5, h6, h7, h8, h9, h10, h11]
    exact (Cert.Spec.kerOut_eq_refOut _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
